-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  main_v3
-- ==== Kernel.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S1x16384, .f32⟩
  | .hbm, ⟨6, _⟩ => ⟨S16384x16384, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  shapeCasts_S16384x1_S1x16384 : S16384x1.ShapeCasts S1x16384
  inb_S1024x64_S1024x64_0_0 : ∀ a, (![0, 0] : Fin 2 → Nat) a + S1024x64.size a ≤ S1024x64.size a
  h_S1024x64 : 0 < S1024x64.numel
  transposes_S1024x64_p1_0_S64x1024 : S1024x64.Transposes [1, 0] S64x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x16384.size a
  hwx0_4 : ∀ i : grid0.Coords, EltTy.bits .f32 = 32 ∨ (Rect.block (s := S16384x16384) S1024x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x16384 : Shape := ⟨2, ![64, 16384]⟩
abbrev S16384x16384 : Shape := ⟨2, ![16384, 16384]⟩
abbrev S1x16384 : Shape := ⟨2, ![1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S64x16384, .f32⟩
  | .hbm, ⟨6, _⟩ => ⟨S16384x16384, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S16384x16384, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S16384x64_S64x16384_1_0 : S16384x64.Transposes [1, 0] S64x16384
  bcast_S_S16384x16384 : S_.BroadcastsInDim S16384x16384 (![] : Fin 0 → Fin S16384x16384.rank)
  bcast_S16384x1_S16384x16384_0_1 : S16384x1.BroadcastsInDim S16384x16384 (![0, 1] : Fin 2 → Fin S16384x16384.rank)
  transposes_S16384x1_S1x16384_1_0 : S16384x1.Transposes [1, 0] S1x16384
  bcast_S1x16384_S16384x16384_0_1 : S1x16384.BroadcastsInDim S16384x16384 (![0, 1] : Fin 2 → Fin S16384x16384.rank)
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.KernelTile.lean ====
/-
  One grid point of the pairwise Gaussian kernel matrix K[r, c] = exp(-‖x_r - x_c‖² / 2).

  The grid is 16 × 16; point (i, j) is handed rows 1024·i … of X (window 0), rows 1024·j … of the SAME array X
  (window 1), the squared norms of the first as a column (window 2) and of the second as a row (window 3), and leaves
  in the output window the 1024 × 1024 tile of K. This module says what the region finds in each array when it is
  entered (the host lines before it have run), what block of each array a point is handed, what tile the body's one
  store leaves as a function of the four blocks, and that the body does leave it: the per-point obligation of the
  pipeline rule, for proof data that holds X at two half shares — one per window reading it.
-/
import proofs.«139127_j65369402245390_1_alg».proof.Proof.Gen.Kernel.Launch
import proofs.«139127_j65369402245390_1_alg».proof.Proof.Gen.Kernel.Skeleton
import proofs.«139127_j65369402245390_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every device buffer of core `c` when the region is entered: the launch contents after the five host lines
    (X ∘ X, the zero, the row sums, the sums as a column, the sums as a row). -/
abbrev V₀ (c : Dev nD) : Valuation τ sig (Elt F) := StableHlo.after hostOps0 (fun b => m (c, b))

/-- The same, at a TensorCore buffer. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host lines, the region, and nothing after it. -/
theorem hmain (𝒱₀ : Variants) : Pipeline.HMainK (Ix := Unit) (Name := ℕ) (U := UR sig nD τ) (Lvl := ℕ) cfgs 0 defs₀ 𝒱₀ m (main (F := F)) (V m)
    (fun _ => Pipeline.chain (([] : List (List (HloOp τ sig (Elt F)))).map StableHlo.seq)) :=
  Pipeline.hmain_around cfgs 0 defs₀ 𝒱₀ m main [hostOps0] [] hostOps0_sub hostOps0_fresh (fun c => (main_chain c).trans rfl)

/-- No host line writes X: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The blocks a point is handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, the block index
    has not moved), for any proof data whose array is the region-entry one and whose body leaves the block in place:
    window by window, none cut and none idle. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The tile the body leaves -/

abbrev rX : Rect S1024x64 := Rect.unit (s := S1024x64) ![0, 0] S1024x64.size inb_S1024x64_S1024x64_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rK : Rect S1024x1024 := Rect.unit (s := S1024x1024) ![0, 0] S1024x1024.size inb_S1024x1024_S1024x1024_0_0

/-- The output window's staging buffer after the body, from the four input blocks: its one store, of the body's
    arithmetic (the skeleton's payload) over the blocks loaded whole. -/
def tileOut (x0 x1 : Vec F S1024x64 .f32) (x2 : Vec F S1024x1 .f32) (x3 : Vec F S1x1024 .f32) : Vec F S1024x1024 .f32 :=
  View.canon [⟨rK, k0_pay1 (View.ld x0 rX) (View.ld x1 rX) (View.ld x2 rCol) (View.ld x3 rRow)⟩]

/-- The one store covers the buffer. -/
theorem cover_tile (p0 : Vec F S1024x1024 .f32) (y : S1024x1024.Idx) :
    ∃ pc ∈ ([⟨rK, p0⟩] : List (View.Piece (Elt F) S1024x1024 .f32)), y ∈ pc.1.set :=
  View.cover_of_tiled [⟨rK, p0⟩] S1024x1024.size (by rfl) y

/-! ## The body's triple -/

set_option maxHeartbeats 1000000 in
/-- The body on whole staging memrefs, the inputs' at contents `xW` and the output's at anything, runs to the
    continuation holding the inputs' as they were and the output's at `tileOut` of the inputs'. -/
theorem sound_kernel (c : Dev nD) (E : Set ℕ) (i : grid0.Coords)
    (arg2 : Memref sig .tc .vmem S1024x64 .f32) (harg2 : arg2.IsWhole) (arg3 : Memref sig .tc .vmem S1024x64 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x64 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileOut x0 x1 x2 x3)) -∗ K ⟨⟩))
      ⊢ wp frame (wpE (defs₀ (F := F)) Variants.none c none) E (cc0__rbf_kernel i arg2 harg2 arg3 harg3 arg4 harg4 arg5 harg5 arg6 harg6) K := by
  simp only [cc0__rbf_kernel_eq_skeleton]; unfold cc0__rbf_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_tile _)

/-! ## The pipeline's proof data -/

/-- The proof data on core `c`: the arrays as the region finds them; after the body at point `t` each input's
    buffer at its block and the output's at the tile of the four blocks; nothing of its own between points; nothing
    owed. X is read through TWO windows, so it is held at the two halves of the full share, one per window; the
    norms' column and row are whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = tileOut (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.LibSharedFrame.lean ====
/-
  The frame run around a kernel region whose windows may SHARE an array.

  A pipelined kernel that is handed one array through several input windows (a Gram matrix `X · Xᵀ` tiled over
  rows AND columns of the same `X`) holds that array once per window, at fractional shares that add up to the whole.
  The launch hands the region the DISTINCT buffers behind the windows' arrays, each whole (`arrBufs`); how they become
  the windows' `arrays` at the region's entry (`hsplit`: a buffer read through several windows is split among them),
  and how the windows' arrays at the region's exit are the distinct buffers again, whole (`hjoin`, `hback`: the shares
  of one buffer rejoined, every window on it holding the same contents), is the certificate's to say; everything else
  — @main as host lines, the region, host lines; the lines after the region running within the arrays' buffers and the
  buffers that bypass the region; the final state read back — is as for distinct arrays.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

namespace Pipeline

open Idealize.ShloMosaic.Rounds

section Tail

variable {Λ₀ : SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

omit [Fintype P] [DecidableEq P] in
/-- The buffers a line after the region may touch, held at `Wv`: the distinct buffers behind the windows' arrays and
    the buffers that bypass the region, each whole at `Wv` — whether or not two windows share an array. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

omit [Fintype P] [DecidableEq P] in
set_option backward.isDefEq.respectTransparency.types false in
/-- The lines after the region, run within the distinct buffers behind the arrays and the bypassing buffers, all held
    whole at `Wv`: they end at the lines' `StableHlo.after` from `Wv`. -/
theorem tail_seqs_shared [Preorder Lvl] {gr : Nat} {W : Nat} (pre : Prefetch sig) (win : Fin W → WinSpec sig gr)
    (c : Dev nD) (Wv : Valuation τ sig Val) (opss : List (List (HloOp τ sig Val)))
    (hsub : ∀ ops ∈ opss, ∀ op ∈ ops, op.bufs ⊆ tailRefs sig pre win)
    (hfresh : ∀ ops ∈ opss, ∀ op ∈ ops, op.fresh = ∅)
    (Q' : PUnit → sProp 𝕄) :
    iprop((iprop(arrBufs win c (fun b => StableHlo.after opss.flatten Wv (Proc.devRef .tc b))
              ∗ unscopedRestP pre win c (fun b => StableHlo.after opss.flatten Wv (Proc.devRef .tc b))) -∗ Q' ⟨⟩)
        ∗ boundary (c.tc : Thread nD τ) ∗ arrBufs win c (fun b => Wv (Proc.devRef .tc b))
        ∗ unscopedRestP pre win c (fun b => Wv (Proc.devRef .tc b)))
      ⊢ wp frame (wpE 𝔻 𝕍 (c.tc : Thread nD τ) none) Set.univ (chain (opss.map StableHlo.seq)) Q' := by
  classical
  rw [← List.append_nil (opss.map StableHlo.seq), ← held_tailRefs_shared pre win c Wv,
    ← held_tailRefs_shared pre win c (StableHlo.after opss.flatten Wv)]
  iintro ⟨Hk, Hb⟩
  iapply (wp_seqs_then pcs defs₀ 𝒱₀ c (tailRefs sig pre win) [] opss hsub hfresh Wv) $$ Hb
  iintro Hb
  rw [chain_nil, wp_pure]
  imodintro
  iapply Hk
  icases Hb with ⟨-, H⟩
  iexact H

end Tail

section Frame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The post of the frame run below: every window's array at what the library computes from the proof data, every
    buffer that bypasses the region at the lines' `StableHlo.after` from the region's exit contents `Wf`. -/
def SharedPost (Wf : Dev nD → Valuation τ sig Val) (opss : List (List (HloOp τ sig Val))) (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (Wf c) (Proc.devRef .tc b)

/-- THE FRAME RUN with a tracking invariant, host lines before and after the region, for windows that may share arrays
    (`WinFacts₀`): the library's run for distinct arrays with the arrays' entry split (`hsplit`) and exit join
    (`hjoin`, and `hback` after the lines, which write no array) supplied. `Wf c` is the core's contents at the region's
    exit: the arrays' buffers at their final contents, every bypassing buffer as the region found it (`hWf`). -/
theorem θ_run_frame_around_track_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ tailRefs sig Prefetch.none (cfg).spec)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (Wf : Dev nD → Valuation τ sig Val)
    (hjoin : ∀ c, (dats p c).arrays ((dats p c).arrAt · (cfg).N) ⊢ (arrBufs (cfg).spec c (fun b => Wf c (Proc.devRef .tc b)) : sProp 𝕄))
    (hback : ∀ c, (arrBufs (cfg).spec c (fun b => StableHlo.after opss.flatten (Wf c) (Proc.devRef .tc b)) : sProp 𝕄)
      ⊢ (dats p c).arrays ((dats p c).arrAt · (cfg).N))
    (hWf : ∀ c, ∀ b ∈ restRefs sig (cfg).spec, Wf c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g) (SharedPost cfgs dats p Wf opss) := by
  classical
  have hrest : ∀ c, (unscopedRestP (Ix := Unit) (Name := ℕ) (U := UR sig nD τ) (Lvl := ℕ) Prefetch.none (cfg).spec c (fun b => V₀ c (Proc.devRef .tc b)) : sProp 𝕄)
      = unscopedRestP Prefetch.none (cfg).spec c (fun b => Wf c (Proc.devRef .tc b)) := fun c => by
    unfold unscopedRestP
    exact bigSep_congr fun b hb => by dsimp only; rw [hWf c b (Finset.mem_sdiff.mp hb).1]
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (Wf c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [hrest c]
      iintro ⟨Hk, Hb, Ha, Hz⟩
      ihave Ha' := (hjoin c) $$ Ha
      iapply (tail_seqs_shared (fun q => (cfgs q).toPCfg (Val := Val)) defs₀ 𝒱₀ Prefetch.none (cfg).spec c (Wf c) opss hsub hfresh Q')
      isplitl [Hk]
      · iintro ⟨Ha, Hz⟩
        iapply Hk
        isplitl [Ha]
        · iapply (hback c); iexact Ha
        · iexact Hz
      isplitl [Hb]; · iexact Hb
      isplitl [Ha']; · iexact Ha'
      iexact Hz)
    (QY := fun c s => ∀ b ∈ restRefsP sig Prefetch.none (cfg).spec, s.mem ((c.tc : Thread nD τ).loc b) = StableHlo.after opss.flatten (Wf c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after opss.flatten (Wf c) (Proc.devRef .tc b)) s')
      isplitl [HU] <;> iassumption)
    (hQ := fun s h c => ⟨(h c).1, fun b hb => (h c).2.2 b (by
      unfold restRefsP
      rw [show (Finset.univ : Finset (Fin 0)).image (Prefetch.none (sig := sig)).ref = ∅ from rfl, Finset.sdiff_empty]
      exact hb)⟩)

end Frame

end Pipeline

end Idealize.ShloMosaic

end
-- ==== Proof.KernelRun.lean ====
/-
  The run of the whole grid, X held once per window.

  X is the array behind BOTH the row window and the column window. The launch hands the region each distinct buffer
  whole; here the full share of X is cut into its two halves, one per window (a half share suffices to read), and
  after the last point the halves, which still hold the same contents, are joined back. The norms' column, the norms'
  row and the output K are each behind one window and pass whole. With that the library's run of the grid applies:
  every weakly fair execution ends, K's buffer holds what the 256 write-backs left and X is as launched.
-/
import proofs.«139127_j65369402245390_1_alg».proof.Proof.KernelTile
import proofs.«139127_j65369402245390_1_alg».proof.Proof.LibSharedFrame

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Four buffers behind five windows -/

/-- The distinct buffers behind the windows' arrays: X (twice), the norms as a column, as a row, and K. -/
theorem arrRefs_eq : Finset.univ.image (Pipeline.arrRef spec0) = ([main_arg0, main_v2, main_v3, main_v4] : List (Ref sig .tc)).toFinset := by decide

/-- The five windows' arrays, X at one half share per window, the others whole, as a chain. -/
theorem arrays_chain (c : Dev nD) (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    ((dats m 0 c).arrays G : sProp 𝕄) = iprop(
      (((c.tc : Thread nD τ).loc main_arg0) ↦{fullShare.left} Vv main_arg0) ∗
      (((c.tc : Thread nD τ).loc main_arg0) ↦{fullShare.right} Vv main_arg0) ∗
      (((c.tc : Thread nD τ).loc main_v2) ↦{fullShare} Vv main_v2) ∗
      (((c.tc : Thread nD τ).loc main_v3) ↦{fullShare} Vv main_v3) ∗
      (((c.tc : Thread nD τ).loc main_v4) ↦{fullShare} Vv main_v4)) := by
  have e : ((dats m 0 c).arrays G : sProp 𝕄)
      = bigSep Finset.univ fun w => (((c.tc : Thread nD τ).loc (Pipeline.arrRef spec0 w)) ↦{(dats m 0 c).share w} Vv (Pipeline.arrRef spec0 w) : sProp 𝕄) := by
    unfold Dat.arrays
    exact bigSep_congr fun w _ => by rw [(arr_whole0 w).set_eq_univ, hG w]
  rw [e, bigSep_W0]
  rfl

/-- The buffers behind the arrays, as a chain. -/
theorem arrBufs_chain (c : Dev nD) (Vv : (b : Ref sig .tc) → Buf (Elt F) ((c.tc : Thread nD τ).loc b)) :
    (Pipeline.arrBufs spec0 c Vv : sProp 𝕄) = iprop(
      (((c.tc : Thread nD τ).loc main_arg0) ↦{fullShare} Vv main_arg0) ∗
      (((c.tc : Thread nD τ).loc main_v2) ↦{fullShare} Vv main_v2) ∗
      (((c.tc : Thread nD τ).loc main_v3) ↦{fullShare} Vv main_v3) ∗
      (((c.tc : Thread nD τ).loc main_v4) ↦{fullShare} Vv main_v4)) := by
  unfold Pipeline.arrBufs
  rw [bigSep_eq_bigSepL_of_eq _ arrRefs_eq (by decide)]
  rfl

/-- X's full share cut in two, one half per window; the other three buffers whole. -/
theorem split_arrays (c : Dev nD) (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    (Pipeline.arrBufs spec0 c Vv : sProp 𝕄) ⊢ (dats m 0 c).arrays G := by
  rw [arrays_chain m c Vv G hG, arrBufs_chain c Vv]
  iintro ⟨Ha, H2, H3, H4⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  isplitl [H3]; · iexact H3
  iexact H4

/-- The two halves of X, at the same contents, joined back. -/
theorem join_arrays (c : Dev nD) (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    (dats m 0 c).arrays G ⊢ (Pipeline.arrBufs spec0 c Vv : sProp 𝕄) := by
  rw [arrays_chain m c Vv G hG, arrBufs_chain c Vv]
  iintro ⟨Hl, Hr, H2, H3, H4⟩
  isplitl [Hl Hr]
  · iapply (pointsTo_share (PosShare.mem_left_op_right fullShare)).2
    isplitl [Hl]; · iexact Hl
    iexact Hr
  isplitl [H2]; · iexact H2
  isplitl [H3]; · iexact H3
  iexact H4

/-! ## The contents at the region's exit -/

/-- Core `c`'s device buffers when the region is left: K's at what the write-backs made of it, every other as the
    region found it. -/
def Wf (c : Dev nD) : Valuation τ sig (Elt F) :=
  Function.update (V₀ m c) (Proc.devRef .tc main_v4) ((dats m 0 c).arrAt 4 cfg0.N)

theorem Wf_K (c : Dev nD) : Wf m c (Proc.devRef .tc main_v4) = (dats m 0 c).arrAt 4 cfg0.N :=
  Function.update_self ..

theorem Wf_other (c : Dev nD) (b : Ref sig .tc) (h : b ≠ main_v4) : Wf m c (Proc.devRef .tc b) = V m c b :=
  Function.update_of_ne (fun e => h (Proc.devRef_injective _ e)) ..

/-- The arrays after the last point are the exit contents: the inputs never written, K as written. -/
theorem exit_arrays (c : Dev nD) (w : Fin cfg0.W) :
    (dats m 0 c).arrAt w cfg0.N = Wf m c (Proc.devRef .tc (Pipeline.arrRef spec0 w)) := by
  match w with
  | ⟨0, _⟩ => exact (((dats m 0 c).arrAt_in 0 rfl _).trans (A_eq m c 0)).trans (Wf_other m c _ (by decide)).symm
  | ⟨1, _⟩ => exact (((dats m 0 c).arrAt_in 1 rfl _).trans (A_eq m c 1)).trans (Wf_other m c _ (by decide)).symm
  | ⟨2, _⟩ => exact (((dats m 0 c).arrAt_in 2 rfl _).trans (A_eq m c 2)).trans (Wf_other m c _ (by decide)).symm
  | ⟨3, _⟩ => exact (((dats m 0 c).arrAt_in 3 rfl _).trans (A_eq m c 3)).trans (Wf_other m c _ (by decide)).symm
  | ⟨4, _⟩ => exact (Wf_K m c).symm

/-! ## The run -/

set_option backward.isDefEq.respectTransparency.types false in
/-- Every weakly fair execution of @main ends, nothing faulting, with every window's array at what the proof data
    computes — K after its 256 write-backs, the inputs as found — and every other buffer as the region found it. -/
theorem run_main : θ_run defs (onTc (τ := τ) (main (F := F))) (s₀ m ρ) (Pipeline.SharedPost cfgs (dats m) 0 (Wf m) []) :=
  Pipeline.θ_run_frame_around_track_shared cfgs (dats m) (0 : Fin 1) defs₀ Variants.none cellOf_inj winFacts₀0 block_pos0 arr_whole0 stage_whole0 m ρ main
    (hbody := fun c => (body_obligation m c).loose) (howed := fun _ _ => rfl) (V₀ := V₀ m) (opss := [])
    (hsub := fun _ h => absurd h List.not_mem_nil) (hfresh := fun _ h => absurd h List.not_mem_nil)
    (hmain := hmain m Variants.none)
    (hsplit := fun c => split_arrays m c (V m c) _ (fun w => A_eq m c w))
    (Wf := Wf m)
    (hjoin := fun c => join_arrays m c (fun b => Wf m c (Proc.devRef .tc b)) _ (exit_arrays m c))
    (hback := fun c => split_arrays m c (fun b => Wf m c (Proc.devRef .tc b)) _ (exit_arrays m c))
    (hWf := fun c b hb => Wf_other m c b (fun e => by
      subst e
      exact (Finset.mem_sdiff.mp hb).2 (Finset.mem_image.mpr ⟨4, Finset.mem_univ _, rfl⟩)))
    (hin := fun c => .rfl) (hout := fun c => .rfl)

/-- The same run read at K and at X: K's buffer holds what the write-backs left, X is as launched. -/
theorem run_K : θ_run defs (onTc (τ := τ) (main (F := F))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)) :=
  (θ_run defs _ _).mono (fun r h c => ⟨(h c).1 4,
      ((h c).1 0).trans (((dats m 0 c).arrAt_in 0 rfl _).trans ((A_eq m c 0).trans (V_main_arg0 m c)))⟩) (run_main m ρ)

/-- The frame: @main runs to the end, nothing faults, X ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_K m ρ)

end Cert.Kernel.Tile

end
-- ==== Proof.IdealTile.lean ====
/-
  One grid point of the pairwise Gaussian kernel matrix K[r, c] = exp(-‖x_r - x_c‖² / 2).

  The grid is 16 × 16; point (i, j) is handed rows 1024·i … of X (window 0), rows 1024·j … of the SAME array X
  (window 1), the squared norms of the first as a column (window 2) and of the second as a row (window 3), and leaves
  in the output window the 1024 × 1024 tile of K. This module says what the region finds in each array when it is
  entered (the host lines before it have run), what block of each array a point is handed, what tile the body's one
  store leaves as a function of the four blocks, and that the body does leave it: the per-point obligation of the
  pipeline rule, for proof data that holds X at two half shares — one per window reading it.
-/
import proofs.«139127_j65369402245390_1_alg».proof.Proof.Gen.KernelIdeal.Launch
import proofs.«139127_j65369402245390_1_alg».proof.Proof.Gen.KernelIdeal.Skeleton
import proofs.«139127_j65369402245390_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every device buffer of core `c` when the region is entered: the launch contents after the five host lines
    (X ∘ X, the zero, the row sums, the sums as a column, the sums as a row). -/
abbrev V₀ (c : Dev nD) : Valuation τ sig (Elt F) := StableHlo.after hostOps0 (fun b => m (c, b))

/-- The same, at a TensorCore buffer. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host lines, the region, and nothing after it. -/
theorem hmain (𝒱₀ : Variants) : Pipeline.HMainK (Ix := Unit) (Name := ℕ) (U := UR sig nD τ) (Lvl := ℕ) cfgs 0 defs₀ 𝒱₀ m (main (F := F)) (V m)
    (fun _ => Pipeline.chain (([] : List (List (HloOp τ sig (Elt F)))).map StableHlo.seq)) :=
  Pipeline.hmain_around cfgs 0 defs₀ 𝒱₀ m main [hostOps0] [] hostOps0_sub hostOps0_fresh (fun c => (main_chain c).trans rfl)

/-- No host line writes X: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The blocks a point is handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, the block index
    has not moved), for any proof data whose array is the region-entry one and whose body leaves the block in place:
    window by window, none cut and none idle. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The tile the body leaves -/

abbrev rX : Rect S1024x64 := Rect.unit (s := S1024x64) ![0, 0] S1024x64.size inb_S1024x64_S1024x64_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rK : Rect S1024x1024 := Rect.unit (s := S1024x1024) ![0, 0] S1024x1024.size inb_S1024x1024_S1024x1024_0_0

/-- The output window's staging buffer after the body, from the four input blocks: its one store, of the body's
    arithmetic (the skeleton's payload) over the blocks loaded whole. -/
def tileOut (x0 x1 : Vec F S1024x64 .f32) (x2 : Vec F S1024x1 .f32) (x3 : Vec F S1x1024 .f32) : Vec F S1024x1024 .f32 :=
  View.canon [⟨rK, k0_pay1 (View.ld x0 rX) (View.ld x1 rX) (View.ld x2 rCol) (View.ld x3 rRow)⟩]

/-- The one store covers the buffer. -/
theorem cover_tile (p0 : Vec F S1024x1024 .f32) (y : S1024x1024.Idx) :
    ∃ pc ∈ ([⟨rK, p0⟩] : List (View.Piece (Elt F) S1024x1024 .f32)), y ∈ pc.1.set :=
  View.cover_of_tiled [⟨rK, p0⟩] S1024x1024.size (by rfl) y

/-! ## The body's triple -/

set_option maxHeartbeats 1000000 in
/-- The body on whole staging memrefs, the inputs' at contents `xW` and the output's at anything, runs to the
    continuation holding the inputs' as they were and the output's at `tileOut` of the inputs'. -/
theorem sound_kernel (c : Dev nD) (E : Set ℕ) (i : grid0.Coords)
    (arg2 : Memref sig .tc .vmem S1024x64 .f32) (harg2 : arg2.IsWhole) (arg3 : Memref sig .tc .vmem S1024x64 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x64 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileOut x0 x1 x2 x3)) -∗ K ⟨⟩))
      ⊢ wp frame (wpE (defs₀ (F := F)) Variants.none c none) E (cc0__rbf_kernel i arg2 harg2 arg3 harg3 arg4 harg4 arg5 harg5 arg6 harg6) K := by
  simp only [cc0__rbf_kernel_eq_skeleton]; unfold cc0__rbf_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_tile _)

/-! ## The pipeline's proof data -/

/-- The proof data on core `c`: the arrays as the region finds them; after the body at point `t` each input's
    buffer at its block and the output's at the tile of the four blocks; nothing of its own between points; nothing
    owed. X is read through TWO windows, so it is held at the two halves of the full share, one per window; the
    norms' column and row are whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = tileOut (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.IdealRun.lean ====
/-
  The run of the whole grid, X held once per window.

  X is the array behind BOTH the row window and the column window. The launch hands the region each distinct buffer
  whole; here the full share of X is cut into its two halves, one per window (a half share suffices to read), and
  after the last point the halves, which still hold the same contents, are joined back. The norms' column, the norms'
  row and the output K are each behind one window and pass whole. With that the library's run of the grid applies:
  every weakly fair execution ends, K's buffer holds what the 256 write-backs left and X is as launched.
-/
import proofs.«139127_j65369402245390_1_alg».proof.Proof.IdealTile
import proofs.«139127_j65369402245390_1_alg».proof.Proof.LibSharedFrame

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Four buffers behind five windows -/

/-- The distinct buffers behind the windows' arrays: X (twice), the norms as a column, as a row, and K. -/
theorem arrRefs_eq : Finset.univ.image (Pipeline.arrRef spec0) = ([main_arg0, main_v2, main_v3, main_v4] : List (Ref sig .tc)).toFinset := by decide

/-- The five windows' arrays, X at one half share per window, the others whole, as a chain. -/
theorem arrays_chain (c : Dev nD) (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    ((dats m 0 c).arrays G : sProp 𝕄) = iprop(
      (((c.tc : Thread nD τ).loc main_arg0) ↦{fullShare.left} Vv main_arg0) ∗
      (((c.tc : Thread nD τ).loc main_arg0) ↦{fullShare.right} Vv main_arg0) ∗
      (((c.tc : Thread nD τ).loc main_v2) ↦{fullShare} Vv main_v2) ∗
      (((c.tc : Thread nD τ).loc main_v3) ↦{fullShare} Vv main_v3) ∗
      (((c.tc : Thread nD τ).loc main_v4) ↦{fullShare} Vv main_v4)) := by
  have e : ((dats m 0 c).arrays G : sProp 𝕄)
      = bigSep Finset.univ fun w => (((c.tc : Thread nD τ).loc (Pipeline.arrRef spec0 w)) ↦{(dats m 0 c).share w} Vv (Pipeline.arrRef spec0 w) : sProp 𝕄) := by
    unfold Dat.arrays
    exact bigSep_congr fun w _ => by rw [(arr_whole0 w).set_eq_univ, hG w]
  rw [e, bigSep_W0]
  rfl

/-- The buffers behind the arrays, as a chain. -/
theorem arrBufs_chain (c : Dev nD) (Vv : (b : Ref sig .tc) → Buf (Elt F) ((c.tc : Thread nD τ).loc b)) :
    (Pipeline.arrBufs spec0 c Vv : sProp 𝕄) = iprop(
      (((c.tc : Thread nD τ).loc main_arg0) ↦{fullShare} Vv main_arg0) ∗
      (((c.tc : Thread nD τ).loc main_v2) ↦{fullShare} Vv main_v2) ∗
      (((c.tc : Thread nD τ).loc main_v3) ↦{fullShare} Vv main_v3) ∗
      (((c.tc : Thread nD τ).loc main_v4) ↦{fullShare} Vv main_v4)) := by
  unfold Pipeline.arrBufs
  rw [bigSep_eq_bigSepL_of_eq _ arrRefs_eq (by decide)]
  rfl

/-- X's full share cut in two, one half per window; the other three buffers whole. -/
theorem split_arrays (c : Dev nD) (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    (Pipeline.arrBufs spec0 c Vv : sProp 𝕄) ⊢ (dats m 0 c).arrays G := by
  rw [arrays_chain m c Vv G hG, arrBufs_chain c Vv]
  iintro ⟨Ha, H2, H3, H4⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  isplitl [H3]; · iexact H3
  iexact H4

/-- The two halves of X, at the same contents, joined back. -/
theorem join_arrays (c : Dev nD) (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    (dats m 0 c).arrays G ⊢ (Pipeline.arrBufs spec0 c Vv : sProp 𝕄) := by
  rw [arrays_chain m c Vv G hG, arrBufs_chain c Vv]
  iintro ⟨Hl, Hr, H2, H3, H4⟩
  isplitl [Hl Hr]
  · iapply (pointsTo_share (PosShare.mem_left_op_right fullShare)).2
    isplitl [Hl]; · iexact Hl
    iexact Hr
  isplitl [H2]; · iexact H2
  isplitl [H3]; · iexact H3
  iexact H4

/-! ## The contents at the region's exit -/

/-- Core `c`'s device buffers when the region is left: K's at what the write-backs made of it, every other as the
    region found it. -/
def Wf (c : Dev nD) : Valuation τ sig (Elt F) :=
  Function.update (V₀ m c) (Proc.devRef .tc main_v4) ((dats m 0 c).arrAt 4 cfg0.N)

theorem Wf_K (c : Dev nD) : Wf m c (Proc.devRef .tc main_v4) = (dats m 0 c).arrAt 4 cfg0.N :=
  Function.update_self ..

theorem Wf_other (c : Dev nD) (b : Ref sig .tc) (h : b ≠ main_v4) : Wf m c (Proc.devRef .tc b) = V m c b :=
  Function.update_of_ne (fun e => h (Proc.devRef_injective _ e)) ..

/-- The arrays after the last point are the exit contents: the inputs never written, K as written. -/
theorem exit_arrays (c : Dev nD) (w : Fin cfg0.W) :
    (dats m 0 c).arrAt w cfg0.N = Wf m c (Proc.devRef .tc (Pipeline.arrRef spec0 w)) := by
  match w with
  | ⟨0, _⟩ => exact (((dats m 0 c).arrAt_in 0 rfl _).trans (A_eq m c 0)).trans (Wf_other m c _ (by decide)).symm
  | ⟨1, _⟩ => exact (((dats m 0 c).arrAt_in 1 rfl _).trans (A_eq m c 1)).trans (Wf_other m c _ (by decide)).symm
  | ⟨2, _⟩ => exact (((dats m 0 c).arrAt_in 2 rfl _).trans (A_eq m c 2)).trans (Wf_other m c _ (by decide)).symm
  | ⟨3, _⟩ => exact (((dats m 0 c).arrAt_in 3 rfl _).trans (A_eq m c 3)).trans (Wf_other m c _ (by decide)).symm
  | ⟨4, _⟩ => exact (Wf_K m c).symm

/-! ## The run -/

set_option backward.isDefEq.respectTransparency.types false in
/-- Every weakly fair execution of @main ends, nothing faulting, with every window's array at what the proof data
    computes — K after its 256 write-backs, the inputs as found — and every other buffer as the region found it. -/
theorem run_main : θ_run defs (onTc (τ := τ) (main (F := F))) (s₀ m ρ) (Pipeline.SharedPost cfgs (dats m) 0 (Wf m) []) :=
  Pipeline.θ_run_frame_around_track_shared cfgs (dats m) (0 : Fin 1) defs₀ Variants.none cellOf_inj winFacts₀0 block_pos0 arr_whole0 stage_whole0 m ρ main
    (hbody := fun c => (body_obligation m c).loose) (howed := fun _ _ => rfl) (V₀ := V₀ m) (opss := [])
    (hsub := fun _ h => absurd h List.not_mem_nil) (hfresh := fun _ h => absurd h List.not_mem_nil)
    (hmain := hmain m Variants.none)
    (hsplit := fun c => split_arrays m c (V m c) _ (fun w => A_eq m c w))
    (Wf := Wf m)
    (hjoin := fun c => join_arrays m c (fun b => Wf m c (Proc.devRef .tc b)) _ (exit_arrays m c))
    (hback := fun c => split_arrays m c (fun b => Wf m c (Proc.devRef .tc b)) _ (exit_arrays m c))
    (hWf := fun c b hb => Wf_other m c b (fun e => by
      subst e
      exact (Finset.mem_sdiff.mp hb).2 (Finset.mem_image.mpr ⟨4, Finset.mem_univ _, rfl⟩)))
    (hin := fun c => .rfl) (hout := fun c => .rfl)

/-- The same run read at K and at X: K's buffer holds what the write-backs left, X is as launched. -/
theorem run_K : θ_run defs (onTc (τ := τ) (main (F := F))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)) :=
  (θ_run defs _ _).mono (fun r h c => ⟨(h c).1 4,
      ((h c).1 0).trans (((dats m 0 c).arrAt_in 0 rfl _).trans ((A_eq m c 0).trans (V_main_arg0 m c)))⟩) (run_main m ρ)

/-- The frame: @main runs to the end, nothing faults, X ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_K m ρ)

end Cert.KernelIdeal.Tile

end
-- ==== Proof.GaussSpec.lean ====
/-
  The pairwise Gaussian kernel matrix of the rows of X, on the extended reals:

      K[r, c] = exp( max( (‖x_r‖² − 2·⟨x_r, x_c⟩) + ‖x_c‖², 0 ) · (−1/2) ),

  with ‖x_r‖² = 0 + Σ_k X[r,k]·X[r,k] and ⟨x_r, x_c⟩ = Σ_k X[r,k]·X[c,k], the constants kept as the float words
  the programs spell (2.0, 0.0, −0.5). One side scales the clipped squared distance by −1/2, the other negates it
  and divides by 2: on the extended reals these agree everywhere, the infinities included (`scale_eq`), because
  dividing by the real 2 is multiplying by 1/2 and a sign moves freely across a product.
-/
import Idealize.ShloMosaic.PureOps.Ideal
import Idealize.ShloMosaic.Lib.ValueIdx

noncomputable section

open scoped BigOperators

namespace Cert.Gauss

open Idealize.ShloMosaic Idealize.ShloMosaic.ValueIdx

abbrev two : EReal := Ideal.ofBits .f32 0x40000000#32
abbrev zero : EReal := Ideal.ofBits .f32 0x00000000#32
abbrev negHalf : EReal := Ideal.ofBits .f32 0xBF000000#32

/-- ⟨x_r, x_c⟩ -/
def gram (X : (⟨2, ![16384, 64]⟩ : Shape).Idx → EReal) (r c : Fin 16384) : EReal :=
  ∑ k : Fin 64, X (ix2 r k) * X (ix2 c k)

/-- ‖x_r‖², summed from the zero word as the host's row sum does. -/
def normSq (X : (⟨2, ![16384, 64]⟩ : Shape).Idx → EReal) (r : Fin 16384) : EReal :=
  zero + ∑ k : Fin 64, X (ix2 r k) * X (ix2 r k)

/-- The matrix from X and from the squared norms handed in as a column and as a row. -/
def ofNorms (X : (⟨2, ![16384, 64]⟩ : Shape).Idx → EReal) (col : (⟨2, ![16384, 1]⟩ : Shape).Idx → EReal)
    (row : (⟨2, ![1, 16384]⟩ : Shape).Idx → EReal) : (⟨2, ![16384, 16384]⟩ : Shape).Idx → EReal :=
  fun i => Ideal.exp (max ((col (ix2 (i 0) 0) - two * gram X (i 0) (i 1)) + row (ix2 0 (i 1))) zero * negHalf)

/-- The Gaussian kernel matrix of X. -/
def K (X : (⟨2, ![16384, 64]⟩ : Shape).Idx → EReal) : (⟨2, ![16384, 16384]⟩ : Shape).Idx → EReal :=
  fun i => Ideal.exp (max ((normSq X (i 0) - two * gram X (i 0) (i 1)) + normSq X (i 1)) zero * negHalf)

/-- With the column and the row both the squared norms, `ofNorms` is `K`. -/
theorem ofNorms_eq (X : (⟨2, ![16384, 64]⟩ : Shape).Idx → EReal) (col : (⟨2, ![16384, 1]⟩ : Shape).Idx → EReal)
    (row : (⟨2, ![1, 16384]⟩ : Shape).Idx → EReal) (hcol : ∀ r, col (ix2 r 0) = normSq X r) (hrow : ∀ r, row (ix2 0 r) = normSq X r) :
    ofNorms X col row = K X := by
  funext i
  unfold ofNorms K
  exact congrArg Ideal.exp (congrArg (· * negHalf) (congrArg (max · zero)
    (congrArg₂ (· + ·) (congrArg (· - two * gram X (i 0) (i 1)) (hcol (i 0))) (hrow (i 1)))))

theorem two_eq : two = ((2 : ℝ) : EReal) := by
  simp [Ideal.ofBits, Ideal.ieee, -EReal.coe_mul]; norm_num

theorem negHalf_eq : negHalf = ((-(1 / 2) : ℝ) : EReal) := by
  simp [Ideal.ofBits, Ideal.ieee, -EReal.coe_mul]; norm_num

/-- Negating and dividing by 2 is scaling by −1/2, for every extended real. -/
theorem scale_eq (x : EReal) : Ideal.div (-x) two = x * negHalf := by
  rw [two_eq, negHalf_eq, Ideal.div_coe (by norm_num : (2 : ℝ) ≠ 0), EReal.coe_neg, EReal.neg_mul, mul_neg]

end Cert.Gauss

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.IdealTileValue.lean ====
/-
  One tile of the Gaussian kernel matrix, entry by entry.

  What the body stores at entry (p, q) of its 1024 × 1024 tile, from the four blocks it loaded — 1024 rows of X for
  the tile's rows, 1024 rows of X for its columns, the row block's squared norms as a column, the column block's as a
  row: exp( max( (col[p] − 2·Σ_k rows[p,k]·cols[q,k]) + row[q], 0 ) · (−1/2) ). The column block is transposed and
  multiplied into a zero accumulator: entry (p, q) of that product is the inner product of row p of the one block
  with row q of the other.
-/
import proofs.«139127_j65369402245390_1_alg».proof.Proof.Gen.KernelIdeal.Skeleton
import proofs.«139127_j65369402245390_1_alg».proof.Proof.GaussSpec
import proofs.«139127_j65369402245390_1_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.TileValue

open Cert.KernelIdeal Cert.KernelIdeal.Gen Cert.Gauss
open Idealize.ShloMosaic Idealize.ShloMosaic.ValueIdx

/-! ## The product's index maps -/

theorem lhs_0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-! ## The pieces of the body's arithmetic at an entry -/

/-- The row block times the transposed column block, into zero, at (p, q): ⟨rows p, cols q⟩. -/
theorem dot_apply (x0 x1 : FVec Ideal S1024x64 .f32) (p q : Fin 1024) :
    matmul dot_S1024x64_S64x1024_S1024x1024_1_0_0_1_n_n (some .fp32) x0 (transpose S64x1024 [1, 0] x1 transposes_S1024x64_p1_0_S64x1024) (constant S1024x1024 .f32 0x00000000#32) (ix2 p q)
      = ∑ k : Fin 64, x0 (ix2 p k) * x1 (ix2 q k) := by
  refine (Cert.MatmulNN.matmul_nn_apply (M := 1024) (K := 64) (N := 1024) dot_S1024x64_S64x1024_S1024x1024_1_0_0_1_n_n (some .fp32) rfl rfl lhs_0 lhs_1 rhs_0 rhs_1 x0 _ p q).trans ?_
  refine Finset.sum_congr rfl fun k _ => congrArg (x0 (ix2 p k) * ·) ?_
  exact transpose_apply [1, 0] x1 transposes_S1024x64_p1_0_S64x1024 (ix2 k q) (ix2 q k) (fun b => match b with
    | ⟨0, _⟩ => rfl
    | ⟨1, _⟩ => rfl)

/-- The norms' column spread over the tile's columns, at (p, q): entry p of the column. -/
theorem col_apply (x2 : FVec Ideal S1024x1 .f32) (p q : Fin 1024) :
    broadcastTo S1024x1024 (shapeCast S1024x1 x2 shapeCasts_S1024x1_S1024x1) broadcasts_S1024x1_S1024x1024 (ix2 p q) = x2 (ix2 p 0) := by
  rw [shapeCast_self]
  exact broadcastTo_apply x2 broadcasts_S1024x1_S1024x1024 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- The norms' row spread over the tile's rows, at (p, q): entry q of the row. -/
theorem row_apply (x3 : FVec Ideal S1x1024 .f32) (p q : Fin 1024) :
    broadcastTo S1024x1024 (shapeCast S1x1024 x3 shapeCasts_S1x1024_S1x1024) broadcasts_S1x1024_S1024x1024 (ix2 p q) = x3 (ix2 0 q) := by
  rw [shapeCast_self]
  exact broadcastTo_apply x3 broadcasts_S1x1024_S1024x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The tile at an entry -/

/-- The body's stored value at (p, q), from its four loaded blocks. -/
theorem tile_apply (x0 x1 : Vec Ideal S1024x64 .f32) (x2 : Vec Ideal S1024x1 .f32) (x3 : Vec Ideal S1x1024 .f32) (p q : Fin 1024) :
    k0_pay1 (F := Ideal) x0 x1 x2 x3 (ix2 p q)
      = Ideal.exp (max ((x2 (ix2 p 0) - two * (∑ k : Fin 64, x0 (ix2 p k) * x1 (ix2 q k))) + x3 (ix2 0 q)) zero * negHalf) := by
  unfold k0_pay1
  refine congrArg Ideal.exp (congrArg (· * negHalf) (congrArg (max · zero) ?_))
  exact congrArg₂ (· + ·) (congrArg₂ (· - ·) (col_apply x2 p q) (congrArg (two * ·) (dot_apply x0 x1 p q))) (row_apply x3 p q)

end Cert.KernelIdeal.TileValue

end
-- ==== Proof.IdealWhole.lean ====
/-
  The 256 tiles make the whole matrix.

  Point (i, j) of the grid writes back the block of K whose rows are 1024·i … and whose columns are 1024·j …; the row
  window and the norms' column move with i, the column window and the norms' row with j. So what point t writes is
  block t of ONE function of the arrays the region found — X, the norms as a column, the norms as a row — and the
  blocks tile K: after the run K's buffer is that function everywhere. The column and the row both hold the squared
  norms ‖x_r‖² (the host's row sums of X ∘ X from zero, kept as a [16384, 1] column and recast to a [1, 16384] row),
  which makes the function the Gaussian kernel matrix of X.
-/
import proofs.«139127_j65369402245390_1_alg».proof.Proof.IdealRun
import proofs.«139127_j65369402245390_1_alg».proof.Proof.IdealTileValue
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Whole

open Cert.KernelIdeal Cert.KernelIdeal.Gen Cert.KernelIdeal.Tile Cert.KernelIdeal.TileValue Cert.Gauss
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The norms the region finds -/

/-- The norms' column as the region finds it: the row sums of X ∘ X from zero, as a [16384, 1] array. -/
theorem norms_col (c : Dev nD) :
    (V m c main_v2 : S16384x1.Idx → EReal) = broadcastInDim S16384x1 ![0] bcast_S16384_S16384x1_0
      (Host.reduceAdd (F := Ideal) (mulf (m ((c : Thread nD τ).loc main_arg0)) (m ((c : Thread nD τ).loc main_arg0)))
        (constant (F := Ideal) S_ .f32 0x00000000#32) reducesTo_S16384x64_S16384_d1 h_S_) := by
  dsimp only [V, hostOps0]; after_results

/-- The norms' row: the column recast to [1, 16384]. -/
theorem norms_row (c : Dev nD) :
    (V m c main_v3 : S1x16384.Idx → EReal) = shapeCast S1x16384 (V m c main_v2 : S16384x1.Idx → EReal) shapeCasts_S16384x1_S1x16384 := by
  dsimp only [V, hostOps0]; after_results; rfl

/-- Entry r of the column is ‖x_r‖². -/
theorem col_norm (c : Dev nD) (r : Fin 16384) : V m c main_v2 (ix2 r 0) = normSq (m ((c : Thread nD τ).loc main_arg0)) r := by
  rw [norms_col]
  refine (broadcastInDim_apply _ bcast_S16384_S16384x1_0 _ (ix2 r 0) (ix1 r) (fun a => match a with
    | ⟨0, _⟩ => by show r.val = if (16384 : Nat) = 1 then 0 else r.val; rw [if_neg (by decide)])).trans ?_
  simp only [Host.reduceAdd, Ideal.hostReduceAdd_def]
  rw [Ideal.hostReduceAdd_single reducesTo_S16384x64_S16384_d1 (by decide)]
  unfold normSq
  refine congrArg₂ (· + ·) rfl (Finset.sum_congr rfl fun k _ => ?_)
  have e : (Shape.Reduces.lift (s := S16384x64) (t := S16384) (a := 1) (by decide) (ix1 r) k) = ix2 r k :=
    funext fun a => Fin.ext (by match a with | ⟨0, _⟩ => rfl | ⟨1, _⟩ => rfl)
  exact (congrArg (mulf (F := Ideal) (m ((c : Thread nD τ).loc main_arg0)) (m ((c : Thread nD τ).loc main_arg0))) e).trans rfl

/-- Entry r of the row is ‖x_r‖². -/
theorem row_norm (c : Dev nD) (r : Fin 16384) : V m c main_v3 (ix2 0 r) = normSq (m ((c : Thread nD τ).loc main_arg0)) r := by
  rw [norms_row]
  refine (shapeCast_apply _ shapeCasts_S16384x1_S1x16384 (ix2 0 r) (ix2 r 0) ?_).trans (col_norm m c r)
  rw [Shape.rowMajor_val_two, Shape.rowMajor_val_two]
  show r.val * 1 + 0 = 0 * 16384 + r.val
  omega

/-! ## The index maps, decided over the grid -/

theorem hz : (![0, 0] : Fin 2 → Nat) = fun _ => 0 := funext fun a => by fin_cases a <;> rfl

/-- The row window and the norms' column sit at the output block's row index, the column window and the norms' row at
    its column index; the other coordinate of each is 0. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2) :=
  (by decide +kernel : ∀ t : Fin grid0.N, _)

/-- Every one of the 16 × 16 blocks of K is some point's. -/
theorem idx_onto : ∀ (q0 q1 : Fin 16), ∃ t : Fin cfg0.N, win0_4.index t = ![q0.val, q1.val] :=
  (by decide +kernel : ∀ (q0 q1 : Fin 16), ∃ t : Fin grid0.N, win0_4.index t = ![q0.val, q1.val])

/-! ## A block read at an entry -/

theorem iblk0_apply (c : Dev nD) (t : Fin cfg0.N) (y : S1024x64.Idx) : iblk m c 0 t y = V m c main_arg0 (((cfg0.win 0).blk t).view.emb y) := by
  unfold iblk; rw [View.read_apply]; exact cast_eq _ _
theorem iblk1_apply (c : Dev nD) (t : Fin cfg0.N) (y : S1024x64.Idx) : iblk m c 1 t y = V m c main_arg0 (((cfg0.win 1).blk t).view.emb y) := by
  unfold iblk; rw [View.read_apply]; exact cast_eq _ _
theorem iblk2_apply (c : Dev nD) (t : Fin cfg0.N) (y : S1024x1.Idx) : iblk m c 2 t y = V m c main_v2 (((cfg0.win 2).blk t).view.emb y) := by
  unfold iblk; rw [View.read_apply]; exact cast_eq _ _
theorem iblk3_apply (c : Dev nD) (t : Fin cfg0.N) (y : S1x1024.Idx) : iblk m c 3 t y = V m c main_v3 (((cfg0.win 3).blk t).view.emb y) := by
  unfold iblk; rw [View.read_apply]; exact cast_eq _ _

/-! ## What a point writes back -/

/-- Point t writes back block t of the matrix made from X and the norms' column and row as the region found them. -/
theorem flushed_eq (c : Dev nD) (t : Fin cfg0.N) :
    (dats m 0 c).flushed 4 t = ((cfg0.win 4).blk t).view.read (Elt Ideal) (ofNorms (V m c main_arg0) (V m c main_v2) (V m c main_v3)) := by
  show (cfg0.win 4).cut (grid0.coords t) ((dats m 0 c).after 4 t) = _
  rw [after_4]
  unfold tileOut
  rw [View.canon_unit_zero hz]
  simp only [View.ld_unit_zero (S := S1024x64) hz, View.ld_unit_zero (S := S1024x1) hz, View.ld_unit_zero (S := S1x1024) hz]
  obtain ⟨e00, e01, e10, e11, e20, e21, e30, e31⟩ := idx_facts t
  funext j
  obtain ⟨p, q, rfl⟩ : ∃ (p q : Fin 1024), j = ix2 p q := ⟨j 0, j 1, eq_ix2 j⟩
  refine (tile_apply (iblk m c 0 t) (iblk m c 1 t) (iblk m c 2 t) (iblk m c 3 t) p q).trans ?_
  rw [View.read_apply]
  refine (?_ : _ = ofNorms (V m c main_arg0) (V m c main_v2) (V m c main_v3) _).trans (cast_eq _ _).symm
  unfold ofNorms
  refine congrArg Ideal.exp (congrArg (· * negHalf) (congrArg (max · zero) (congrArg₂ (· + ·) (congrArg₂ (· - ·) ?_ (congrArg (two * ·) ?_)) ?_)))
  · refine (iblk2_apply m c t _).trans (congrArg (V m c main_v2) (funext fun a => Fin.ext ?_))
    match a with
    | ⟨0, _⟩ => show win0_2.index t (0 : Fin 2) * 1024 + 1 * p.val = win0_4.index t (0 : Fin 2) * 1024 + 1 * p.val; omega
    | ⟨1, _⟩ => show win0_2.index t (1 : Fin 2) * 1 + 1 * 0 = 0; omega
  · unfold gram
    refine Finset.sum_congr rfl fun k _ => congrArg₂ (· * ·) ?_ ?_
    · refine (iblk0_apply m c t _).trans (congrArg (V m c main_arg0) (funext fun a => Fin.ext ?_))
      match a with
      | ⟨0, _⟩ => show win0_0.index t (0 : Fin 2) * 1024 + 1 * p.val = win0_4.index t (0 : Fin 2) * 1024 + 1 * p.val; omega
      | ⟨1, _⟩ => show win0_0.index t (1 : Fin 2) * 64 + 1 * k.val = k.val; omega
    · refine (iblk1_apply m c t _).trans (congrArg (V m c main_arg0) (funext fun a => Fin.ext ?_))
      match a with
      | ⟨0, _⟩ => show win0_1.index t (0 : Fin 2) * 1024 + 1 * q.val = win0_4.index t (1 : Fin 2) * 1024 + 1 * q.val; omega
      | ⟨1, _⟩ => show win0_1.index t (1 : Fin 2) * 64 + 1 * k.val = k.val; omega
  · refine (iblk3_apply m c t _).trans (congrArg (V m c main_v3) (funext fun a => Fin.ext ?_))
    match a with
    | ⟨0, _⟩ => show win0_3.index t (0 : Fin 2) * 1 + 1 * 0 = 0; omega
    | ⟨1, _⟩ => show win0_3.index t (1 : Fin 2) * 1024 + 1 * q.val = win0_4.index t (1 : Fin 2) * 1024 + 1 * q.val; omega

/-! ## The blocks tile K -/

theorem mem_blk (t : Fin cfg0.N) (i : S16384x16384.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4).slice (win0_4.rect t)).set ↔ _
  rw [View.set_slice_whole, Rect.mem_set_unit]
  exact Iff.rfl

/-- Entry (r, c) of K lies in the block of the point with block index (r / 1024, c / 1024). -/
theorem covered (i : S16384x16384.Idx) : ∃ t : Fin cfg0.N, (cfg0.win 4).flush t = true ∧ i ∈ ((cfg0.win 4).blk t).view.set := by
  have hi0 : (i 0).val < 16384 := (i 0).isLt
  have hi1 : (i 1).val < 16384 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-! ## K after the run -/

/-- After the last write-back K's buffer is the Gaussian kernel matrix of X as launched. -/
theorem final (c : Dev nD) : (dats m 0 c).arrAt 4 cfg0.N = K (m ((c : Thread nD τ).loc main_arg0)) := by
  rw [(dats m 0 c).arrAt_eq_of_cover 4 (ofNorms (V m c main_arg0) (V m c main_v2) (V m c main_v3)) (fun t _ => flushed_eq m c t) covered,
    V_main_arg0]
  exact ofNorms_eq _ _ _ (col_norm m c) (row_norm m c)

/-- Every weakly fair execution of the kernel's @main ends with K's buffer at the Gaussian kernel matrix of X and X
    as launched. -/
theorem run : θ_run defs (onTc (τ := τ) (main (F := Ideal))) ⟨m, fun _ => 0, ρ⟩ fun r => ∀ c : Dev nD,
      r.2.mem ((c.tc : Thread nD τ).loc main_v4) = K (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (run_K m ρ)

end Cert.KernelIdeal.Whole

end
-- ==== Proof.RefValue.lean ====
/-
  The reference, read entry by entry, is the Gaussian kernel matrix.

  Its lines: the row sums of X ∘ X from zero (the squared norms), kept as a column; X · Xᵀ by one matrix product;
  column − 2·product + the column transposed to a row; the maximum with zero; the negation, divided by 2; the
  exponential. At entry (r, c) that is exp( (−max( (‖x_r‖² − 2·⟨x_r, x_c⟩) + ‖x_c‖², 0 )) / 2 ), and negating then
  halving is scaling by −1/2.
-/
import proofs.«139127_j65369402245390_1_alg».proof.Proof.Gen.ReferenceIdeal.Read
import proofs.«139127_j65369402245390_1_alg».proof.Proof.GaussSpec

noncomputable section

open scoped BigOperators

namespace Cert.ReferenceIdeal.RefValue

open Cert.ReferenceIdeal Cert.ReferenceIdeal.Gen Cert.ReferenceIdeal.Read Cert.Gauss
open Idealize.ShloMosaic Idealize.ShloMosaic.ValueIdx

/-- The row sums of X ∘ X: entry r is ‖x_r‖². -/
theorem sums_apply (X : (⟨S16384x64, .f32⟩ : BufTy).Contents (Elt Ideal)) (j : S16384.Idx) :
    val_main_v1 (F := Ideal) X j = normSq X (j 0) := by
  rw [val_main_v1_apply]
  unfold normSq
  refine congrArg₂ (· + ·) rfl (Finset.sum_congr rfl fun k _ => ?_)
  rw [val_main_v0_apply]
  have e : idx_main_v1 j k = ix2 (j 0) k := funext fun a => Fin.ext (by match a with | ⟨0, _⟩ => rfl | ⟨1, _⟩ => rfl)
  rw [e]; rfl

/-- The norms' column spread over the columns: entry (r, c) is ‖x_r‖². -/
theorem bcol_apply (X : (⟨S16384x64, .f32⟩ : BufTy).Contents (Elt Ideal)) (i : S16384x16384.Idx) :
    val_main_v7 (F := Ideal) X i = normSq X (i 0) := by
  rw [val_main_v7_apply, val_main_v2_apply]; exact sums_apply X _

/-- The norms' column transposed and spread over the rows: entry (r, c) is ‖x_c‖². -/
theorem brow_apply (X : (⟨S16384x64, .f32⟩ : BufTy).Contents (Elt Ideal)) (i : S16384x16384.Idx) :
    val_main_v10 (F := Ideal) X i = normSq X (i 1) := by
  rw [val_main_v10_apply, val_main_v9_apply, val_main_v2_apply]; exact sums_apply X _

/-- X · Xᵀ: entry (r, c) is ⟨x_r, x_c⟩. -/
theorem gram_apply (X : (⟨S16384x64, .f32⟩ : BufTy).Contents (Elt Ideal)) (i : S16384x16384.Idx) :
    val_main_v4 (F := Ideal) X i = gram X (i 0) (i 1) := by
  rw [val_main_v4_apply]
  unfold gram
  refine Finset.sum_congr rfl fun k _ => ?_
  rw [val_main_v3_apply]
  have el : lidx_main_v4 i k = ix2 (i 0) k := funext fun a => Fin.ext (by match a with | ⟨0, _⟩ => rfl | ⟨1, _⟩ => rfl)
  have er : idx_main_v3 (ridx_main_v4 i k) = ix2 (i 1) k := funext fun a => Fin.ext (by match a with | ⟨0, _⟩ => rfl | ⟨1, _⟩ => rfl)
  rw [el, er]; rfl

/-- The reference's result is the Gaussian kernel matrix of its argument. -/
theorem ref_eq (X : (⟨S16384x64, .f32⟩ : BufTy).Contents (Elt Ideal)) : val_main_v17 (F := Ideal) X = K X := by
  funext i
  rw [val_main_v17_apply, val_main_v16_apply, val_main_v14_apply, val_main_v13_apply, val_main_v11_apply, val_main_v8_apply,
    val_main_v6_apply, bcol_apply, brow_apply, gram_apply, val_main_v5_apply, val_main_v12_apply, val_main_v15_apply,
    val_main_cst_0_apply, val_main_cst_1_apply, val_main_cst_2_apply]
  simp only [Ideal.hostUnary_exp_def, Ideal.hostDivf_def, Ideal.hostNegf_def, Ideal.negf_def, Ideal.maximumf_def, Ideal.addf_def,
    Ideal.subf_def, Ideal.mulf_def, Ideal.ofBits_def]
  unfold K
  exact congrArg Ideal.exp (scale_eq _)

end Cert.ReferenceIdeal.RefValue

end
-- ==== Proof.lean ====
/-
  The pairwise Gaussian kernel matrix K[r, c] = exp(-‖x_r - x_c‖² / 2) of the 16384 rows of X, tiled 16 × 16.

  The kernel computes each 1024 × 1024 tile from 1024 rows of X for the tile's rows, 1024 rows of the SAME X for its
  columns, and the squared norms precomputed on the host as a column and as a row; the reference computes the whole
  matrix at once. Entry by entry both are exp( max( (‖x_r‖² − 2·⟨x_r, x_c⟩) + ‖x_c‖², 0 ) · (−1/2) ) on the extended
  reals — the same sums in the same grouping, the kernel scaling by −1/2 where the reference negates and divides by 2,
  which agree for every extended real — so the claim needs nothing of the inputs' finiteness.

  The frames: X is read through two windows, so the run holds X at the two halves of its full share, one per window,
  and joins them after the last point (Proof/IdealRun.lean and Proof/KernelRun.lean over Proof/LibSharedFrame.lean);
  the body is one load per window, the arithmetic, one store (Proof/IdealTile.lean, Proof/KernelTile.lean).
  The values: the tile at an entry (Proof/IdealTileValue.lean), the tiles as blocks of one matrix that cover K
  (Proof/IdealWhole.lean), the reference entry by entry (Proof/RefValue.lean), the matrix itself and the law that
  joins the two scalings (Proof/GaussSpec.lean).
-/
import proofs.«139127_j65369402245390_1_alg».proof.Defs
import proofs.«139127_j65369402245390_1_alg».proof.Proof.Gen.Kernel
import proofs.«139127_j65369402245390_1_alg».proof.Proof.Gen.KernelIdeal
import proofs.«139127_j65369402245390_1_alg».proof.Proof.Gen.ReferenceIdeal
import proofs.«139127_j65369402245390_1_alg».proof.Proof.Gen.ReferenceIdeal.Run
import proofs.«139127_j65369402245390_1_alg».proof.Proof.Gen.ReferenceIdeal.Read
import proofs.«139127_j65369402245390_1_alg».proof.Proof.Gen.Pre_finite_inputs
import proofs.«139127_j65369402245390_1_alg».proof.Proof.KernelRun
import proofs.«139127_j65369402245390_1_alg».proof.Proof.IdealWhole
import proofs.«139127_j65369402245390_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves X as launched. -/
theorem frame_kernel : Cert.frame_Kernel := fun m ρ _ => Cert.Kernel.Tile.frame (F := Bits) m ρ

/-- So does the kernel read on the extended reals. -/
theorem frame_kernelIdeal : Cert.frame_KernelIdeal := fun m ρ _ => Cert.KernelIdeal.Tile.frame (F := Ideal) m ρ

/-- The reference is host lines only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end holding the Gaussian kernel matrix of the X they were launched with, and the X's agree. -/
theorem algebraic : Cert.algebraic_KernelIdeal_ReferenceIdeal := by
  intro m ρ m' ρ' _ hagree
  refine ⟨fun c => Cert.Gauss.K (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v17_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
